-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x65536 : Shape := ⟨3, ![8, 128, 65536]⟩
abbrev S8x512x65536 : Shape := ⟨3, ![8, 512, 65536]⟩
abbrev S_ : Shape := ⟨0, ![]⟩

class Facts : Prop where
  bcast_S_S8x128x65536 : S_.BroadcastsInDim S8x128x65536 (![] : Fin 0 → Fin S8x128x65536.rank)
  reducesTo_S8x128x65536_S_d0_1_2 : S8x128x65536.ReducesTo [0, 1, 2] S_
  h_S_ : 0 < S_.numel
  bcast_S_S8x512x65536 : S_.BroadcastsInDim S8x512x65536 (![] : Fin 0 → Fin S8x512x65536.rank)
  reducesTo_S8x512x65536_S_d0_1_2 : S8x512x65536.ReducesTo [0, 1, 2] S_

variable [Facts]

def fn {F : FTy → Type} [FloatOps F] (main_arg0 : FVec F S8x128x65536 .f32) (main_arg1 : FVec F S8x512x65536 .f32) : IVec S_ 1 :=
  let main_v0 : FVec F S8x128x65536 .f32 := Host.absf main_arg0
  let main_cst : FVec F S_ .f32 := constant S_ .f32 0x7F800000#32
  let main_v1 : FVec F S8x128x65536 .f32 := broadcastInDim S8x128x65536 ![] bcast_S_S8x128x65536 main_cst
  let main_v2 : IVec S8x128x65536 1 := cmpf .olt main_v0 main_v1
  let main_c : IVec S_ 1 := constantI S_ 1 1#1
  let main_v3 : IVec S_ 1 := (fun x v => Host.reduce IntOp.andi x v reducesTo_S8x128x65536_S_d0_1_2 h_S_) main_v2 main_c
  let main_v4 : FVec F S8x512x65536 .f32 := Host.absf main_arg1
  let main_cst_0 : FVec F S_ .f32 := constant S_ .f32 0x7F800000#32
  let main_v5 : FVec F S8x512x65536 .f32 := broadcastInDim S8x512x65536 ![] bcast_S_S8x512x65536 main_cst_0
  let main_v6 : IVec S8x512x65536 1 := cmpf .olt main_v4 main_v5
  let main_c_1 : IVec S_ 1 := constantI S_ 1 1#1
  let main_v7 : IVec S_ 1 := (fun x v => Host.reduce IntOp.andi x v reducesTo_S8x512x65536_S_d0_1_2 h_S_) main_v6 main_c_1
  let main_v8 : IVec S_ 1 := andi main_v3 main_v7
  main_v8
-- ==== Kernel.lean ====
abbrev S8x128x65536 : Shape := ⟨3, ![8, 128, 65536]⟩
abbrev S8x512x65536 : Shape := ⟨3, ![8, 512, 65536]⟩
abbrev S8x128x512 : Shape := ⟨3, ![8, 128, 512]⟩
abbrev S1x128x4096 : Shape := ⟨3, ![1, 128, 4096]⟩
abbrev S1x512x4096 : Shape := ⟨3, ![1, 512, 4096]⟩
abbrev S1x128x512 : Shape := ⟨3, ![1, 128, 512]⟩
abbrev S128x512 : Shape := ⟨2, ![128, 512]⟩
abbrev S128x4096 : Shape := ⟨2, ![128, 4096]⟩
abbrev S512x4096 : Shape := ⟨2, ![512, 4096]⟩

abbrev nBuf : Space → Nat
  | .hbm => 3
  | .vmem => 7
  | .smem => 0
  | _ => 0

abbrev bufTy : (tb : Table) → Fin (tcTables nBuf tb) → BufTy
  | .hbm, ⟨0, _⟩ => ⟨S8x128x65536, .f32⟩
  | .hbm, ⟨1, _⟩ => ⟨S8x512x65536, .f32⟩
  | .hbm, ⟨2, _⟩ => ⟨S8x128x512, .f32⟩
  | .local _ .vmem, ⟨0, _⟩ => ⟨S1x128x4096, .f32⟩
  | .local _ .vmem, ⟨1, _⟩ => ⟨S1x128x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x128x512, .f32⟩
  | .local _ .vmem, ⟨5, _⟩ => ⟨S1x128x512, .f32⟩
  | .local _ .vmem, ⟨6, _⟩ => ⟨S128x512, .f32⟩
  | _, _ => ⟨S8x128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  dot_S128x4096_S512x4096_S128x512_1_1_0_0_n_n_wf : DotDims.WF S128x4096 S512x4096 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S8x128x65536.size a
  hwx0_0 : ∀ i : grid0.Coords, EltTy.bits .f32 = 32 ∨ (Rect.block (s := S8x128x65536) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x512x65536.size a
  hwx0_1 : ∀ i : grid0.Coords, EltTy.bits .f32 = 32 ∨ (Rect.block (s := S8x512x65536) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x128x512.size a
  hwx0_2 : ∀ i : grid0.Coords, EltTy.bits .f32 = 32 ∨ (Rect.block (s := S8x128x512) S1x128x512.size (cc0_transform_2 i) (hinb0_2 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x128x65536 : Shape := ⟨3, ![8, 128, 65536]⟩
abbrev S8x512x65536 : Shape := ⟨3, ![8, 512, 65536]⟩
abbrev S8x128x512 : Shape := ⟨3, ![8, 128, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x128x65536, .f32⟩
  | .hbm, ⟨1, _⟩ => ⟨S8x512x65536, .f32⟩
  | .hbm, ⟨2, _⟩ => ⟨S8x128x512, .f32⟩
  | _, _ => ⟨S8x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x128x65536_S8x512x65536_S8x128x512_2_2_1_1_0_0_wf : DotDims.WF S8x128x65536 S8x512x65536 S8x128x512 [2] [2] [1] [1] [0] [0]

variable [Facts₀]

def dot_S8x128x65536_S8x512x65536_S8x128x512_2_2_1_1_0_0 : DotDims S8x128x65536 S8x512x65536 S8x128x512 where
  lhsContracting := [2]
  rhsContracting := [2]
  lhsNonContracting := [1]
  rhsNonContracting := [1]
  lhsBatch := [0]
  rhsBatch := [0]
  wf := dot_S8x128x65536_S8x512x65536_S8x128x512_2_2_1_1_0_0_wf

class Facts : Prop extends Facts₀ where

variable [Facts]
-- ==== Proof.LibBlockSum.lean ====
/-
  Sums cut into consecutive blocks, and sums built up by an accumulator.

  A sum over a · b consecutive indices is the sum, over the a blocks of b consecutive indices, of the sums inside each
  block: the index k = i · b + q runs through 0, …, a · b − 1 exactly once as (i, q) runs through the pairs with i < a and
  q < b. And a quantity that starts as zero plus the first term and gains one more term at every step is, after n steps,
  the sum of the first n + 1 terms. Both hold in every commutative additive monoid — the addition of the extended reals
  is one — with no finiteness or sign condition on the terms.
-/
import Mathlib.Algebra.BigOperators.Fin
import Mathlib.Data.EReal.Basic

namespace Cert.Lib

open scoped BigOperators

variable {M : Type*} [AddCommMonoid M]

/-! ## A range of a · b indices as a blocks of b -/

/-- Entry q of block i lies in the range: i · b + q < a · b for i < a and q < b. -/
theorem blockIdx_lt {a b : ℕ} (i : Fin a) (q : Fin b) : i.val * b + q.val < a * b :=
  calc i.val * b + q.val < i.val * b + b := Nat.add_lt_add_left q.isLt _
    _ = (i.val + 1) * b := (Nat.succ_mul _ _).symm
    _ ≤ a * b := Nat.mul_le_mul_right b i.isLt

/-- The same with the product written the other way round: b · i + q < a · b. -/
theorem blockIdx_lt' {a b : ℕ} (i : Fin a) (q : Fin b) : b * i.val + q.val < a * b := by
  rw [Nat.mul_comm b]
  exact blockIdx_lt i q

/-- A sum over a · b consecutive indices is the sum over the blocks of the sums inside each block, the index of entry q
    of block i written i · b + q. -/
theorem sum_blocks (a b : ℕ) (f : Fin (a * b) → M) :
    ∑ k : Fin (a * b), f k = ∑ i : Fin a, ∑ q : Fin b, f ⟨i.val * b + q.val, blockIdx_lt i q⟩ := by
  rw [← Equiv.sum_comp finProdFinEquiv f, Fintype.sum_prod_type]
  refine Finset.sum_congr rfl fun i _ => Finset.sum_congr rfl fun q _ => congrArg f (Fin.ext ?_)
  show q.val + b * i.val = i.val * b + q.val
  rw [Nat.mul_comm, Nat.add_comm]

/-- The same with the index of entry q of block i written b · i + q. -/
theorem sum_blocks' (a b : ℕ) (f : Fin (a * b) → M) :
    ∑ k : Fin (a * b), f k = ∑ i : Fin a, ∑ q : Fin b, f ⟨b * i.val + q.val, blockIdx_lt' i q⟩ := by
  rw [sum_blocks]
  refine Finset.sum_congr rfl fun i _ => Finset.sum_congr rfl fun q _ => congrArg f (Fin.ext ?_)
  show i.val * b + q.val = b * i.val + q.val
  rw [Nat.mul_comm]

/-! ## A sum built up by an accumulator -/

/-- An accumulator that starts as zero plus the first term and gains the next term at every step before the a-th holds,
    at every step n before the a-th, the sum of the first n + 1 terms. -/
theorem acc_eq_sum_range_of_lt (a : ℕ) (S acc : ℕ → M) (h0 : acc 0 = 0 + S 0)
    (hs : ∀ n, n + 1 < a → acc (n + 1) = acc n + S (n + 1)) (n : ℕ) (hn : n < a) :
    acc n = ∑ i ∈ Finset.range (n + 1), S i := by
  induction n with
  | zero => rw [h0, zero_add, Finset.sum_range_one]
  | succ n ih => rw [hs n hn, ih (Nat.lt_of_succ_lt hn), Finset.sum_range_succ S (n + 1)]

/-- An accumulator that starts as zero plus the first term and gains the next term at every step holds, at step n, the
    sum of the first n + 1 terms. -/
theorem acc_eq_sum_range (S acc : ℕ → M) (h0 : acc 0 = 0 + S 0) (hs : ∀ n, acc (n + 1) = acc n + S (n + 1)) (n : ℕ) :
    acc n = ∑ i ∈ Finset.range (n + 1), S i :=
  acc_eq_sum_range_of_lt (n + 1) S acc h0 (fun k _ => hs k) n (Nat.lt_succ_self n)

/-- After the last of a steps the accumulator holds the sum of all a terms. -/
theorem acc_last_eq_sum (a : ℕ) (ha : 0 < a) (S acc : ℕ → M) (h0 : acc 0 = 0 + S 0)
    (hs : ∀ n, n + 1 < a → acc (n + 1) = acc n + S (n + 1)) :
    acc (a - 1) = ∑ i : Fin a, S i.val := by
  rw [acc_eq_sum_range_of_lt a S acc h0 hs (a - 1) (Nat.sub_lt ha Nat.one_pos), Nat.sub_add_cancel ha, Finset.sum_range]

/-! ## 8192 columns as 2 blocks of 4096 and as 4 blocks of 2048 -/

/-- Column q of block kb, when 8192 columns are cut into 2 blocks of 4096: the column kb · 4096 + q. -/
def col_2x4096 (kb : Fin 2) (q : Fin 4096) : Fin 8192 := ⟨kb.val * 4096 + q.val, blockIdx_lt kb q⟩

/-- Column q of block kb, when 8192 columns are cut into 4 blocks of 2048: the column kb · 2048 + q. -/
def col_4x2048 (kb : Fin 4) (q : Fin 2048) : Fin 8192 := ⟨kb.val * 2048 + q.val, blockIdx_lt kb q⟩

@[simp] theorem col_2x4096_val (kb : Fin 2) (q : Fin 4096) : (col_2x4096 kb q).val = kb.val * 4096 + q.val := rfl
@[simp] theorem col_4x2048_val (kb : Fin 4) (q : Fin 2048) : (col_4x2048 kb q).val = kb.val * 2048 + q.val := rfl

/-- A sum over 8192 columns is the sum over the 2 blocks of 4096 columns of the sums inside each block. -/
theorem sum_8192_as_2x4096 (f : Fin 8192 → M) :
    ∑ k : Fin 8192, f k = ∑ kb : Fin 2, ∑ q : Fin 4096, f (col_2x4096 kb q) :=
  sum_blocks 2 4096 f

/-- A sum over 8192 columns is the sum over the 4 blocks of 2048 columns of the sums inside each block. -/
theorem sum_8192_as_4x2048 (f : Fin 8192 → M) :
    ∑ k : Fin 8192, f k = ∑ kb : Fin 4, ∑ q : Fin 2048, f (col_4x2048 kb q) :=
  sum_blocks 4 2048 f

/-! The extended reals' addition is a commutative monoid, so all of the above holds there as it stands. -/

example (f : Fin 8192 → EReal) : ∑ k : Fin 8192, f k = ∑ kb : Fin 2, ∑ q : Fin 4096, f (col_2x4096 kb q) :=
  sum_8192_as_2x4096 f

example (f : Fin 8192 → EReal) : ∑ k : Fin 8192, f k = ∑ kb : Fin 4, ∑ q : Fin 2048, f (col_4x2048 kb q) :=
  sum_8192_as_4x2048 f

example (S acc : ℕ → EReal) (h0 : acc 0 = 0 + S 0) (hs : ∀ n, n + 1 < 4 → acc (n + 1) = acc n + S (n + 1)) :
    acc 3 = ∑ i : Fin 4, S i.val :=
  acc_last_eq_sum 4 (by decide) S acc h0 hs

end Cert.Lib
-- ==== Proof.Pieces.lean ====
/-
  What one run of the kernel body leaves behind, case by case, as the stores' values.

  A grid point's body is in one of three cases. At the FIRST tile of a batch it zeroes the accumulator, then adds the
  tile's product to it; at a MIDDLE tile it only adds; at the LAST tile it adds and then copies the accumulator into the
  output block. Every load and store of the body goes through the whole of its buffer, so a load reads exactly what
  the buffer holds, a store leaves exactly its value, and a load that follows a store reads that store's value. Hence,
  with X and W the tile's two input blocks and acc what the accumulator held when the body started:

      first tile :  the accumulator ends as  accumulate X W (zero block)
      middle tile:  the accumulator ends as  accumulate X W acc
      last tile  :  the accumulator ends as  accumulate X W acc, and the output block as the copy of that.

  These hold for every reading of the float operations: nothing is computed here, the stores' values are only named.
-/
import proofs.«143034_j2525440770049_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a rank-2 buffer, however they are spelt. -/
theorem zeros2 : (![0, 0] : Fin 2 → Nat) = fun _ => 0 := funext fun a => by fin_cases a <;> rfl
/-- The zero offsets of a rank-3 buffer. -/
theorem zeros3 : (![0, 0, 0] : Fin 3 → Nat) = fun _ => 0 := funext fun a => by fin_cases a <;> rfl

/-- MIDDLE TILE: the accumulator, holding acc, ends as acc plus the tile's product. -/
theorem scratch_middle (c : Dev nD) (i : grid0.Coords) (a2 : Memref sig .tc .vmem S1x128x4096 .f32) (h2 : a2.IsWhole)
    (a3 : Memref sig .tc .vmem S1x512x4096 .f32) (h3 : a3.IsWhole) (a4 : Memref sig .tc .vmem S1x128x512 .f32) (h4 : a4.IsWhole)
    (a5 : Memref sig .tc .vmem S128x512 .f32) (h5 : a5.IsWhole) (hc0 : ¬cond0_0 i) (hc1 : ¬cond0_1 i)
    (x0 : Vec F S1x128x4096 .f32) (x1 : Vec F S1x512x4096 .f32) (acc : Vec F S128x512 .f32) :
    sout0_B_0 c i a2 h2 a3 h3 a4 h4 a5 h5 hc0 hc1 x0 x1 acc = k0_pay2 x0 x1 acc := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero zeros2]
  simp only [View.readAt_eq_ld, h2.read_unread, h3.read_unread, h5.read_unread, View.ld_unit_zero (S := S1x128x4096) zeros3,
    View.ld_unit_zero (S := S1x512x4096) zeros3, View.ld_unit_zero (S := S128x512) zeros2]

/-- FIRST TILE: whatever the accumulator held, it ends as the zero block plus the tile's product — the body stores the
    zero block and what it then reads back is that block. -/
theorem scratch_first (c : Dev nD) (i : grid0.Coords) (a2 : Memref sig .tc .vmem S1x128x4096 .f32) (h2 : a2.IsWhole)
    (a3 : Memref sig .tc .vmem S1x512x4096 .f32) (h3 : a3.IsWhole) (a4 : Memref sig .tc .vmem S1x128x512 .f32) (h4 : a4.IsWhole)
    (a5 : Memref sig .tc .vmem S128x512 .f32) (h5 : a5.IsWhole) (hc0 : cond0_0 i) (hc1 : ¬cond0_1 i)
    (x0 : Vec F S1x128x4096 .f32) (x1 : Vec F S1x512x4096 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x512) zeros2, View.readCov_unit_zero (S := S128x512) _ zeros2]
  simp only [View.readAt_eq_ld, h2.read_unread, h3.read_unread, View.ld_unit_zero (S := S1x128x4096) zeros3,
    View.ld_unit_zero (S := S1x512x4096) zeros3]

/-- LAST TILE, the accumulator: as at a middle tile. -/
theorem scratch_last (c : Dev nD) (i : grid0.Coords) (a2 : Memref sig .tc .vmem S1x128x4096 .f32) (h2 : a2.IsWhole)
    (a3 : Memref sig .tc .vmem S1x512x4096 .f32) (h3 : a3.IsWhole) (a4 : Memref sig .tc .vmem S1x128x512 .f32) (h4 : a4.IsWhole)
    (a5 : Memref sig .tc .vmem S128x512 .f32) (h5 : a5.IsWhole) (hc0 : ¬cond0_0 i) (hc1 : cond0_1 i)
    (x0 : Vec F S1x128x4096 .f32) (x1 : Vec F S1x512x4096 .f32) (acc : Vec F S128x512 .f32) :
    sout0_C_0 c i a2 h2 a3 h3 a4 h4 a5 h5 hc0 hc1 x0 x1 acc = k0_pay2 x0 x1 acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero zeros2]
  simp only [View.readAt_eq_ld, h2.read_unread, h3.read_unread, h5.read_unread, View.ld_unit_zero (S := S1x128x4096) zeros3,
    View.ld_unit_zero (S := S1x512x4096) zeros3, View.ld_unit_zero (S := S128x512) zeros2]

/-- LAST TILE, the output block: the copy of what the accumulator ends as — the body reads the accumulator back after
    its store and stores that into the output block. -/
theorem output_last (c : Dev nD) (i : grid0.Coords) (a2 : Memref sig .tc .vmem S1x128x4096 .f32) (h2 : a2.IsWhole)
    (a3 : Memref sig .tc .vmem S1x512x4096 .f32) (h3 : a3.IsWhole) (a4 : Memref sig .tc .vmem S1x128x512 .f32) (h4 : a4.IsWhole)
    (a5 : Memref sig .tc .vmem S128x512 .f32) (h5 : a5.IsWhole) (hc0 : ¬cond0_0 i) (hc1 : cond0_1 i)
    (x0 : Vec F S1x128x4096 .f32) (x1 : Vec F S1x512x4096 .f32) (acc : Vec F S128x512 .f32) :
    out0_C_2 c i a2 h2 a3 h3 a4 h4 a5 h5 hc0 hc1 x0 x1 acc = k0_pay3 (k0_pay2 x0 x1 acc) := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero zeros3, View.readCov_unit_zero (S := S128x512) _ zeros2]
  simp only [View.readAt_eq_ld, h2.read_unread, h3.read_unread, h5.read_unread, View.ld_unit_zero (S := S1x128x4096) zeros3,
    View.ld_unit_zero (S := S1x512x4096) zeros3, View.ld_unit_zero (S := S128x512) zeros2]

end Cert.KernelIdeal.Pieces

end
-- ==== Proof.LibMatmulRowsByRows.lean ====
/-
  A matrix product that contracts BOTH operands along their second axis, read at an entry.

  For an M × K array l and an N × K array r the product along the shared second axis is the M × N array whose entry
  (p, q) is Σ_{k < K} l[p, k] · r[q, k]: row p of l against row q of r (the product of l with the transpose of r,
  written without the transpose). With floats exact extended reals the matrix unit's product into the zero
  accumulator is exactly this sum: no rounding and no order of summation is left in it.

  The dimension numbers are `rowsByRows M K N`: contracting axes [1] and [1], free axes [0] and [0], no batch axes. A
  printed record with these lists over the shapes [M, K], [N, K], [M, N] equals it by `rfl`.
-/
import Idealize.ShloMosaic.Lib.ValueIdx
import Idealize.ShloMosaic.PureOps.Ideal.Laws

noncomputable section

namespace Cert.Lib

open Idealize.ShloMosaic Idealize.ShloMosaic.ValueIdx
open scoped BigOperators

/-- The dimension numbers of an [M, K] by [N, K] product along the second axes into [M, N], the well-formedness
    proof a parameter (so that a printed record, which carries its own, equals this by `rfl`). -/
abbrev rowsByRows (M K N : ℕ)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : ℕ} (wf : DotDims.WF ⟨2, ![M, K]⟩ ⟨2, ![N, K]⟩ ⟨2, ![M, N]⟩ [1] [1] [0] [0] [] [])

/-- The left operand's row coordinate at output entry i is i's row, whatever the contraction position. -/
theorem rowsByRows_lhs_row (i : (⟨2, ![M, N]⟩ : Shape).Idx) (k : (rowsByRows M K N wf).contr.Idx) :
    ((rowsByRows M K N wf).lhsIdx i k 0).val = (i 0).val := by
  unfold DotDims.lhsIdx
  rw [dif_neg (show ¬(0 : Fin (⟨2, ![M, K]⟩ : Shape).rank) ∈ (rowsByRows M K N wf).lhsBatch from List.not_mem_nil),
    dif_pos (show (0 : Fin (⟨2, ![M, K]⟩ : Shape).rank) ∈ (rowsByRows M K N wf).lhsNonContracting from List.mem_singleton.mpr rfl)]
  rfl

/-- The right operand's row coordinate at output entry i is i's column. -/
theorem rowsByRows_rhs_row (i : (⟨2, ![M, N]⟩ : Shape).Idx) (k : (rowsByRows M K N wf).contr.Idx) :
    ((rowsByRows M K N wf).rhsIdx i k 0).val = (i 1).val := by
  unfold DotDims.rhsIdx
  rw [dif_neg (show ¬(0 : Fin (⟨2, ![N, K]⟩ : Shape).rank) ∈ (rowsByRows M K N wf).rhsBatch from List.not_mem_nil),
    dif_pos (show (0 : Fin (⟨2, ![N, K]⟩ : Shape).rank) ∈ (rowsByRows M K N wf).rhsNonContracting from List.mem_singleton.mpr rfl)]
  rfl

/-- At output entry (p, q) and contraction position k the product reads its left operand at (p, k) … -/
theorem rowsByRows_lhsIdx (p : Fin M) (q : Fin N) (k : Fin K) :
    (rowsByRows M K N wf).lhsIdx (ix2 p q) ((contrEquiv1 (rowsByRows M K N wf) K rfl rfl).symm k) = ix2 p k := by
  have hk := contrEquiv1_symm_val (rowsByRows M K N wf) K rfl rfl k
  funext a
  apply Fin.ext
  match a with
  | ⟨0, _⟩ => exact rowsByRows_lhs_row wf _ _
  | ⟨1, _⟩ => exact ((rowsByRows M K N wf).lhsIdx_val_of_single rfl _ _).trans hk

/-- … and its right operand at (q, k). -/
theorem rowsByRows_rhsIdx (p : Fin M) (q : Fin N) (k : Fin K) :
    (rowsByRows M K N wf).rhsIdx (ix2 p q) ((contrEquiv1 (rowsByRows M K N wf) K rfl rfl).symm k) = ix2 q k := by
  have hk := contrEquiv1_symm_val (rowsByRows M K N wf) K rfl rfl k
  funext a
  apply Fin.ext
  match a with
  | ⟨0, _⟩ => exact rowsByRows_rhs_row wf _ _
  | ⟨1, _⟩ => exact ((rowsByRows M K N wf).rhsIdx_val_of_single rfl _ _).trans hk

/-- Over exact extended reals, entry (p, q) of the matrix unit's product of l [M, K] and r [N, K] along their second axes
    into the zero accumulator is Σ_{k < K} l[p, k] · r[q, k], whatever the operands' float formats and the precision
    asked for. -/
theorem matmul_rowsByRows_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (rowsByRows M K N wf) prec l r (constant ⟨2, ![M, N]⟩ .f32 0x00000000#32) (ix2 p q)
      = ∑ k : Fin K, l (ix2 p k) * r (ix2 q k) := by
  rw [Ideal.matmul_constant_zero_apply, ← Equiv.sum_comp (contrEquiv1 (rowsByRows M K N wf) K rfl rfl).symm]
  exact Finset.sum_congr rfl fun k _ => by rw [rowsByRows_lhsIdx, rowsByRows_rhsIdx]

end Cert.Lib

end
-- ==== Proof.Payload.lean ====
/-
  What the kernel body stores, entry by entry, when floats are exact extended reals.

  The body has three stores. The first (only at the first tile of a batch) fills the 128 × 512 accumulator with
  zeros. The second replaces the accumulator acc by acc + X · Wᵀ, where X is the 128 × 4096 block of values and W the
  512 × 4096 block of weights of the current tile: entry (c, r) gains Σ_{j < 4096} X[c, j] · W[r, j] — both blocks
  are contracted along their pixel axis, so the weights enter with row r, not column r. The narrowing of both
  blocks to a shorter float format before the product changes nothing here, a change of format being the identity on
  exact values, and the product's own accumulator is the zero block, which adds nothing. The third store (only at
  the last tile of a batch) copies the accumulator into the output block, entry (c, r) to entry (0, c, r).
-/
import proofs.«143034_j2525440770049_2_alg».proof.Proof.Gen.KernelIdeal.Skeleton
import Idealize.ShloMosaic.Lib.ValueLayout
import Idealize.ShloMosaic.PureOps.Ideal.Laws
import proofs.«143034_j2525440770049_2_alg».proof.Proof.LibMatmulRowsByRows

noncomputable section

namespace Cert.KernelIdeal.Payload

open Cert.KernelIdeal Cert.KernelIdeal.Gen Idealize.ShloMosaic Idealize.ShloMosaic.ValueIdx
open scoped BigOperators

/-- The dimension numbers of the body's matrix product: both operands contracted along axis 1. -/
local notation "D" => dot_S128x4096_S512x4096_S128x512_1_1_0_0_n_n

/-- The first store's value is the zero block. -/
theorem zeroBlock_apply (i : S128x512.Idx) : k0_pay1 (F := Ideal) i = 0 := by
  unfold k0_pay1
  rw [shapeCast_self]
  exact Ideal.ofBits_zero_f32

/-- The body's product contracts both blocks along their pixel axis: its dimension numbers are those of a product of
    a 128 × 4096 by a 512 × 4096 array along the second axes. -/
theorem product_dims :
    (D) = Cert.Lib.rowsByRows 128 4096 512 Facts₀.dot_S128x4096_S512x4096_S128x512_1_1_0_0_n_n_wf := rfl

/-- The second store's value at entry (c, r): the accumulator there plus the tile's contribution
    Σ_j X[0, c, j] · W[0, r, j]. -/
theorem accumulate_apply (x0 : Vec Ideal S1x128x4096 .f32) (x1 : Vec Ideal S1x512x4096 .f32)
    (acc : Vec Ideal S128x512 .f32) (c : Fin 128) (r : Fin 512) :
    k0_pay2 (F := Ideal) x0 x1 acc (ix2 c r)
      = acc (ix2 c r) + ∑ j : Fin 4096, x0 (ix3 (0 : Fin 1) c j) * x1 (ix3 (0 : Fin 1) r j) := by
  unfold k0_pay2
  rw [shapeCast_self]
  show acc (ix2 c r) + _ = _
  congr 1
  simp only [matmul]
  rw [product_dims, Cert.Lib.matmul_rowsByRows_zero_apply]
  exact Finset.sum_congr rfl fun j _ => by
    rw [truncf_apply, truncf_apply, shapeCast_1ab_ab_apply, shapeCast_1ab_ab_apply]

/-- The third store's value at entry (0, c, r) is the accumulator's entry (c, r). -/
theorem writeOut_apply (acc : Vec Ideal S128x512 .f32) (u : Fin 1) (c : Fin 128) (r : Fin 512) :
    k0_pay3 (F := Ideal) acc (ix3 u c r) = acc (ix2 c r) := by
  unfold k0_pay3
  exact shapeCast_ab_1ab_apply _ _ u c r

end Cert.KernelIdeal.Payload

end
-- ==== Proof.RegionSum.lean ====
/-
  The region aggregate, stated once, and the law that joins its two arrangements.

  For a batch b, a channel c and a region r the aggregate is

      out[b, c, r] = Σ_{n < 65536} x[b, c, n] · w[b, r, n]

  the sum over all 65536 pixels of the channel's value at the pixel times the region's weight at the pixel. One
  program forms this sum in one piece. The other cuts the pixels into 16 consecutive tiles of 4096, forms the sum
  inside each tile, and adds the 16 tile sums one after the other onto zero. The pixel n = 4096·k + j is pixel j of
  tile k, every pixel lies in exactly one tile, and a finite sum in a commutative monoid does not depend on how its
  terms are grouped: so the sum over all pixels is the sum over the tiles of the tile sums. The addition of the
  extended reals is such a monoid (+∞ + −∞ is a fixed value there, and the sum of a family is still independent of
  the grouping), so nothing about the size or the sign of the entries is used.
-/
import Idealize.ShloMosaic.PureOps.Ideal
import Idealize.ShloMosaic.Lib.ValueIdx
import proofs.«143034_j2525440770049_2_alg».proof.Proof.LibBlockSum

noncomputable section

namespace Cert.RegionAgg

open Idealize.ShloMosaic Idealize.ShloMosaic.ValueIdx
open scoped BigOperators

/-- The values x[b, c, n]: 8 batches, 128 channels, 65536 pixels. -/
abbrev SX : Shape := ⟨3, ![8, 128, 65536]⟩
/-- The weights w[b, r, n]: 8 batches, 512 regions, 65536 pixels. -/
abbrev SW : Shape := ⟨3, ![8, 512, 65536]⟩
/-- The aggregate out[b, c, r]. -/
abbrev SO : Shape := ⟨3, ![8, 128, 512]⟩

/-- Pixel j of tile k, when the 65536 pixels are cut into 16 consecutive tiles of 4096: the pixel 4096·k + j. -/
def pixel (k : Fin 16) (j : Fin 4096) : Fin 65536 := ⟨k.val * 4096 + j.val, Cert.Lib.blockIdx_lt k j⟩

@[simp] theorem pixel_val (k : Fin 16) (j : Fin 4096) : (pixel k j).val = k.val * 4096 + j.val := rfl

/-- One entry of the aggregate: the sum over all pixels n of x[b, c, n] · w[b, r, n]. -/
def entry (x : SX.Idx → EReal) (w : SW.Idx → EReal) (b : Fin 8) (c : Fin 128) (r : Fin 512) : EReal :=
  ∑ n : Fin 65536, x (ix3 b c n) * w (ix3 b r n)

/-- The part of that entry that tile k contributes: the sum over the tile's 4096 pixels. -/
def tile (x : SX.Idx → EReal) (w : SW.Idx → EReal) (b : Fin 8) (c : Fin 128) (r : Fin 512) (k : Fin 16) : EReal :=
  ∑ j : Fin 4096, x (ix3 b c (pixel k j)) * w (ix3 b r (pixel k j))

/-- The aggregate as one array: entry (b, c, r) at the index (b, c, r). -/
def regionSum (x : SX.Idx → EReal) (w : SW.Idx → EReal) : SO.Idx → EReal :=
  fun i => entry x w (i 0) (i 1) (i 2)

theorem regionSum_apply (x : SX.Idx → EReal) (w : SW.Idx → EReal) (b : Fin 8) (c : Fin 128) (r : Fin 512) :
    regionSum x w (ix3 b c r) = entry x w b c r := rfl

/-- THE JOINING LAW: an entry of the aggregate is the sum of its 16 tile contributions. -/
theorem entry_eq_sum_tiles (x : SX.Idx → EReal) (w : SW.Idx → EReal) (b : Fin 8) (c : Fin 128) (r : Fin 512) :
    entry x w b c r = ∑ k : Fin 16, tile x w b c r k :=
  Cert.Lib.sum_blocks 16 4096 (fun n : Fin 65536 => x (ix3 b c n) * w (ix3 b r n))

/-- The same with the tiles counted by a natural number below 16, the form an accumulation over steps produces:
    zero plus the contributions of steps 0, …, 15. A step past the last tile contributes nothing. -/
def tileAt (x : SX.Idx → EReal) (w : SW.Idx → EReal) (b : Fin 8) (c : Fin 128) (r : Fin 512) (s : ℕ) : EReal :=
  if h : s < 16 then tile x w b c r ⟨s, h⟩ else 0

theorem tileAt_of_lt (x : SX.Idx → EReal) (w : SW.Idx → EReal) (b : Fin 8) (c : Fin 128) (r : Fin 512) (s : ℕ)
    (h : s < 16) : tileAt x w b c r s = tile x w b c r ⟨s, h⟩ := dif_pos h

/-- Zero plus the contributions of the first 16 steps is the entry of the aggregate. -/
theorem zero_add_sum_range_tileAt (x : SX.Idx → EReal) (w : SW.Idx → EReal) (b : Fin 8) (c : Fin 128) (r : Fin 512) :
    (0 : EReal) + ∑ s ∈ Finset.range 16, tileAt x w b c r s = entry x w b c r := by
  rw [zero_add, entry_eq_sum_tiles, Finset.sum_range]
  exact Finset.sum_congr rfl fun k _ => tileAt_of_lt x w b c r k.val k.isLt

end Cert.RegionAgg

end
-- ==== Proof.Fold.lean ====
/-
  The accumulator over a batch's run of tiles.

  The grid has 8 · 16 points; point t works on batch t / 16 and on tile t % 16 of the pixels. Its two input blocks are
  cut out of the whole arrays: the value block holds x[t / 16, c, 4096 · (t % 16) + j] at (0, c, j), the weight block
  w[t / 16, r, 4096 · (t % 16) + j] at (0, r, j). What the point adds to entry (c, r) of the accumulator is therefore
  the tile's contribution Σ_j x[b, c, 4096k + j] · w[b, r, 4096k + j] with b = t / 16 and k = t % 16.

  The first point of a batch (t % 16 = 0) leaves zero plus its contribution whatever the accumulator held; every later
  point of the batch leaves what it found plus its contribution. So after point t the accumulator holds zero plus the
  contributions of tiles 0, …, t % 16 of batch t / 16 — by induction along the run, never by listing the 128 points.
-/
import proofs.«143034_j2525440770049_2_alg».proof.Proof.Gen.KernelIdeal.Value
import proofs.«143034_j2525440770049_2_alg».proof.Proof.Pieces
import proofs.«143034_j2525440770049_2_alg».proof.Proof.Payload
import proofs.«143034_j2525440770049_2_alg».proof.Proof.RegionSum
import Idealize.ShloMosaic.Lib.Pipeline.Value

noncomputable section

namespace Cert.KernelIdeal.Aggregate

open Cert.KernelIdeal Cert.KernelIdeal.Gen Idealize.ShloMosaic Idealize.ShloMosaic.TcCoe Idealize.SL.Sem
open Idealize.ShloMosaic.ValueIdx Cert.RegionAgg
open Idealize.ShloMosaic.Pipeline (Dat)
open scoped BigOperators

variable (m : (ℓ : Loc nD τ sig) → Buf (Elt Ideal) ℓ)

/-- The values x as device c holds them when the kernel starts. -/
abbrev argX (c : Dev nD) : SX.Idx → EReal := m ((c : Thread nD τ).loc main_arg0)
/-- The weights w as device c holds them when the kernel starts. -/
abbrev argW (c : Dev nD) : SW.Idx → EReal := m ((c : Thread nD τ).loc main_arg1)

/-- Where the three windows' blocks sit at point t, decided once over the grid: the input blocks at batch t / 16, all
    rows, tile t % 16; the output block at batch t / 16, all rows, all columns. -/
theorem blockIndex : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = 0 :=
  (by decide +kernel : ∀ t : Fin grid0.N, _)

/-- The value block of the point that works on batch b and tile k holds x[b, c, pixel j of tile k] at (0, c, j). -/
theorem valueBlock_apply (c : Dev nD) (t : Fin cfg0.N) (b : Fin 8) (k : Fin 16) (ht : t.val = 16 * b.val + k.val)
    (p : Fin 128) (j : Fin 4096) :
    (iblk m c 0 t : Vec Ideal S1x128x4096 .f32) (ix3 (0 : Fin 1) p j) = argX m c (ix3 b p (pixel k j)) := by
  obtain ⟨e0, e1, e2, -⟩ := blockIndex t
  have hk := k.isLt
  unfold iblk
  rw [View.read_apply]
  show m ((c : Thread nD τ).loc main_arg0) _ = m ((c : Thread nD τ).loc main_arg0) _
  refine congrArg _ (funext fun a => Fin.ext ?_)
  match a with
  | ⟨0, _⟩ => show win0_0.index t (0 : Fin 3) * 1 + 1 * 0 = b.val; omega
  | ⟨1, _⟩ => show win0_0.index t (1 : Fin 3) * 128 + 1 * p.val = p.val; omega
  | ⟨2, _⟩ => show win0_0.index t (2 : Fin 3) * 4096 + 1 * j.val = k.val * 4096 + j.val; omega

/-- The weight block of that point holds w[b, r, pixel j of tile k] at (0, r, j). -/
theorem weightBlock_apply (c : Dev nD) (t : Fin cfg0.N) (b : Fin 8) (k : Fin 16) (ht : t.val = 16 * b.val + k.val)
    (r : Fin 512) (j : Fin 4096) :
    (iblk m c 1 t : Vec Ideal S1x512x4096 .f32) (ix3 (0 : Fin 1) r j) = argW m c (ix3 b r (pixel k j)) := by
  obtain ⟨-, -, -, e0, e1, e2, -⟩ := blockIndex t
  have hk := k.isLt
  unfold iblk
  rw [View.read_apply]
  show m ((c : Thread nD τ).loc main_arg1) _ = m ((c : Thread nD τ).loc main_arg1) _
  refine congrArg _ (funext fun a => Fin.ext ?_)
  match a with
  | ⟨0, _⟩ => show win0_1.index t (0 : Fin 3) * 1 + 1 * 0 = b.val; omega
  | ⟨1, _⟩ => show win0_1.index t (1 : Fin 3) * 512 + 1 * r.val = r.val; omega
  | ⟨2, _⟩ => show win0_1.index t (2 : Fin 3) * 4096 + 1 * j.val = k.val * 4096 + j.val; omega

/-- Entry (c, r) of the product of a value block and a weight block along their pixel axis. -/
def blockProduct (x0 : Vec Ideal S1x128x4096 .f32) (x1 : Vec Ideal S1x512x4096 .f32) (i : S128x512.Idx) : EReal :=
  ∑ j : Fin 4096, x0 (ix3 (0 : Fin 1) (i 0) j) * x1 (ix3 (0 : Fin 1) (i 1) j)

/-- What point n adds to entry (c, r) of the accumulator: the product of its two input blocks there. Past the grid,
    nothing. -/
def addend (c : Dev nD) (n : ℕ) (i : S128x512.Idx) : EReal :=
  if h : n < cfg0.N then blockProduct (iblk m c 0 ⟨n, h⟩) (iblk m c 1 ⟨n, h⟩) i else 0

/-- The point that works on batch b and tile k adds that tile's contribution to the batch's aggregate. -/
theorem addend_eq_tile (c : Dev nD) (b : Fin 8) (k : Fin 16) (p : Fin 128) (r : Fin 512) :
    addend m c (16 * b.val + k.val) (ix2 p r) = tile (argX m c) (argW m c) b p r k := by
  have h : 16 * b.val + k.val < cfg0.N := by
    have := b.isLt; have := k.isLt; rw [show cfg0.N = 128 from N_0]; omega
  unfold addend tile
  rw [dif_pos h]
  unfold blockProduct
  exact Finset.sum_congr rfl fun j _ => congrArg₂ (· * ·)
    (valueBlock_apply m c ⟨_, h⟩ b k rfl p j) (weightBlock_apply m c ⟨_, h⟩ b k rfl r j)

/-- At the first point of a batch the accumulator ends, whatever it held, as zero plus the point's addend. -/
theorem step_first (c : Dev nD) (n : ℕ) (hb : n < cfg0.N) (hn : n % 16 = 0) (acc : Vec Ideal S128x512 .f32)
    (i : S128x512.Idx) : Value.scAt0_0 m c n hb acc i = 0 + addend m c n i := by
  have h1 : ¬n % 16 = 15 := by omega
  unfold Value.scAt0_0
  rw [dif_pos hn, dif_neg h1]
  refine (congrFun (Pieces.scratch_first (F := Ideal) c (grid0.coords (⟨n, hb⟩ : Fin cfg0.N)) (ms0_0 ⟨n, hb⟩) (hs0_0 ⟨n, hb⟩)
    (ms0_1 ⟨n, hb⟩) (hs0_1 ⟨n, hb⟩) (ms0_2 ⟨n, hb⟩) (hs0_2 ⟨n, hb⟩) scM0_0 (Memref.isWhole_whole _)
    ((hcond0_0 ⟨n, hb⟩).mpr hn) (fun h => h1 ((hcond0_1 ⟨n, hb⟩).mp h)) (iblk m c 0 ⟨n, hb⟩) (iblk m c 1 ⟨n, hb⟩)) i).trans ?_
  rw [eq_ix2 i]
  refine (Payload.accumulate_apply (iblk m c 0 ⟨n, hb⟩) (iblk m c 1 ⟨n, hb⟩) (k0_pay1 (F := Ideal)) (i 0) (i 1)).trans ?_
  rw [Payload.zeroBlock_apply]
  unfold addend
  rw [dif_pos hb]
  rfl

/-- At every later point of a batch the accumulator ends as what it held plus the point's addend. -/
theorem step_later (c : Dev nD) (n : ℕ) (hb : n < cfg0.N) (hn : ¬n % 16 = 0) (acc : Vec Ideal S128x512 .f32)
    (i : S128x512.Idx) : Value.scAt0_0 m c n hb acc i = acc i + addend m c n i := by
  have hadd : (k0_pay2 (F := Ideal) (iblk m c 0 ⟨n, hb⟩) (iblk m c 1 ⟨n, hb⟩) acc) i = acc i + addend m c n i := by
    rw [eq_ix2 i]
    refine (Payload.accumulate_apply (iblk m c 0 ⟨n, hb⟩) (iblk m c 1 ⟨n, hb⟩) acc (i 0) (i 1)).trans ?_
    unfold addend
    rw [dif_pos hb]
    rfl
  unfold Value.scAt0_0
  rw [dif_neg hn]
  by_cases h1 : n % 16 = 15
  · rw [dif_pos h1]
    exact (congrFun (Pieces.scratch_last (F := Ideal) c (grid0.coords (⟨n, hb⟩ : Fin cfg0.N)) (ms0_0 ⟨n, hb⟩) (hs0_0 ⟨n, hb⟩)
      (ms0_1 ⟨n, hb⟩) (hs0_1 ⟨n, hb⟩) (ms0_2 ⟨n, hb⟩) (hs0_2 ⟨n, hb⟩) scM0_0 (Memref.isWhole_whole _)
      (fun h => hn ((hcond0_0 ⟨n, hb⟩).mp h)) ((hcond0_1 ⟨n, hb⟩).mpr h1) (iblk m c 0 ⟨n, hb⟩) (iblk m c 1 ⟨n, hb⟩) acc) i).trans hadd
  · rw [dif_neg h1]
    exact (congrFun (Pieces.scratch_middle (F := Ideal) c (grid0.coords (⟨n, hb⟩ : Fin cfg0.N)) (ms0_0 ⟨n, hb⟩) (hs0_0 ⟨n, hb⟩)
      (ms0_1 ⟨n, hb⟩) (hs0_1 ⟨n, hb⟩) (ms0_2 ⟨n, hb⟩) (hs0_2 ⟨n, hb⟩) scM0_0 (Memref.isWhole_whole _)
      (fun h => hn ((hcond0_0 ⟨n, hb⟩).mp h)) (fun h => h1 ((hcond0_1 ⟨n, hb⟩).mp h)) (iblk m c 0 ⟨n, hb⟩) (iblk m c 1 ⟨n, hb⟩) acc) i).trans hadd

/-- THE ACCUMULATOR AFTER POINT t: zero plus the addends of the points of t's batch up to t. -/
theorem accumulator_after (c : Dev nD) (t : Fin cfg0.N) (i : S128x512.Idx) :
    (outsAt0 m c t.val t.isLt).2 i
      = 0 + ∑ s ∈ Finset.range (t.val % 16 + 1), addend m c (16 * (t.val / 16) + s) i := by
  have hN : cfg0.N = 128 := N_0
  have ht := t.isLt
  rw [Value.soutsAt0_0_eq m c t]
  exact Pipeline.accAt_add_apply
    (fun n h => Value.scAt0_0 m c n h (VS0_0.read (Elt Ideal) VS0_0.junk)) (Value.scAt0_0 m c)
    (fun _ => (0 : EReal)) (addend m c) (16 * (t.val / 16)) 15
    (fun h i => step_first m c _ h (by omega) _ i)
    (fun n h acc i h1 h2 => step_later m c n h (by omega) acc i)
    (t.val % 16) (by omega) _ i

end Cert.KernelIdeal.Aggregate

end
-- ==== Proof.Final.lean ====
/-
  The kernel's result array is the region aggregate.

  The output block of batch b is written back to the result array once, after the batch's last tile (point 16·b + 15).
  At that point the body copies the accumulator into the output block, and the accumulator holds zero plus the
  contributions of all 16 tiles of the batch: entry (0, c, r) of the block written back is the aggregate's entry
  (b, c, r). The eight blocks written back are the eight batches of the result array, so every entry of the array is
  written, and the array ends as the aggregate of the argument arrays.
-/
import proofs.«143034_j2525440770049_2_alg».proof.Proof.Fold

noncomputable section

namespace Cert.KernelIdeal.Aggregate

open Cert.KernelIdeal Cert.KernelIdeal.Gen Idealize.ShloMosaic Idealize.ShloMosaic.TcCoe Idealize.SL.Sem
open Idealize.ShloMosaic.ValueIdx Cert.RegionAgg
open Idealize.ShloMosaic.Pipeline (Dat)
open scoped BigOperators

variable (m : (ℓ : Loc nD τ sig) → Buf (Elt Ideal) ℓ) (ρ : Dev nD → PrngReg)

/-- The aggregate of the argument arrays, as contents of the result array. -/
abbrev result (c : Dev nD) : Buf (Elt Ideal) ((c : Thread nD τ).loc main_v0) :=
  regionSum (argX m c) (argW m c)

/-- What a batch's last point writes back: the copy of the accumulator as that point leaves it. -/
theorem flushed_last (c : Dev nD) (t : Fin cfg0.N) (h15 : t.val % 16 = 15) :
    (dats m 0 c).flushed 2 t
      = (cfg0.win 2).cut (grid0.coords t) (k0_pay3 (F := Ideal) ((outsAt0 m c t.val t.isLt).2)) := by
  have h0 : ¬t.val % 16 = 0 := by omega
  rw [Value.flushed2_C m c t h0 h15, outsAt0_C m c t h0 h15]
  dsimp only
  rw [Pieces.output_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h15) (iblk m c 0 t) (iblk m c 1 t)
      ((outsAt0 m c (t.val - 1) (Nat.lt_of_le_of_lt (Nat.sub_le _ _) t.isLt)).2),
    Pieces.scratch_last (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h15) (iblk m c 0 t) (iblk m c 1 t)
      ((outsAt0 m c (t.val - 1) (Nat.lt_of_le_of_lt (Nat.sub_le _ _) t.isLt)).2)]

/-- After a batch's last point the accumulator's entry (c, r) is the aggregate's entry (b, c, r). -/
theorem accumulator_last (c : Dev nD) (t : Fin cfg0.N) (b : Fin 8) (ht : t.val = 16 * b.val + 15) (p : Fin 128) (r : Fin 512) :
    (outsAt0 m c t.val t.isLt).2 (ix2 p r) = entry (argX m c) (argW m c) b p r := by
  have hb := b.isLt
  rw [accumulator_after m c t (ix2 p r), ← zero_add_sum_range_tileAt]
  rw [show t.val % 16 + 1 = 16 by omega, show 16 * (t.val / 16) = 16 * b.val by omega]
  refine congrArg (0 + ·) (Finset.sum_congr rfl fun s hs => ?_)
  have hs' : s < 16 := Finset.mem_range.mp hs
  rw [tileAt_of_lt _ _ _ _ _ s hs']
  exact addend_eq_tile m c b ⟨s, hs'⟩ p r

/-- Entry (u, p, r) of the block the last point of batch b writes back is the aggregate's entry (b, p, r). -/
theorem last_entry (c : Dev nD) (t : Fin cfg0.N) (b : Fin 8) (ht : t.val = 16 * b.val + 15) (u : Fin 1) (p : Fin 128)
    (r : Fin 512) :
    k0_pay3 (F := Ideal) ((outsAt0 m c t.val t.isLt).2) (ix3 u p r) = result m c (ix3 b p r) := by
  rw [Payload.writeOut_apply, accumulator_last m c t b ht]
  rfl

/-- The output block is never cut short by the array's end, so what is written back of a block Z is Z itself. -/
theorem writtenBack_apply (t : Fin cfg0.N) (Z : Vec Ideal S1x128x512 .f32) (y : S1x128x512.Idx) :
    (cfg0.win 2).cut (grid0.coords t) Z y = Z y := rfl

/-- What the last point of a batch writes back is its block of ANY array G that agrees, on the batch, with the copy of
    the accumulator: the block of point t = 16·b + 15 puts its entry (u, p, r) at the array index (b, p, r). -/
theorem flushed_eq_of (c : Dev nD) (t : Fin cfg0.N) (h15 : t.val % 16 = 15)
    (G : Buf (Elt Ideal) ((c : Thread nD τ).loc main_v0))
    (hG : ∀ (b : Fin 8) (u : Fin 1) (p : Fin 128) (r : Fin 512), t.val = 16 * b.val + 15 →
      k0_pay3 (F := Ideal) ((outsAt0 m c t.val t.isLt).2) (ix3 u p r) = G (ix3 b p r)) :
    (dats m 0 c).flushed 2 t = ((cfg0.win 2).blk t).view.read (Elt Ideal) G := by
  have hN : cfg0.N = 128 := N_0
  have ht := t.isLt
  have hb : t.val / 16 < 8 := by omega
  obtain ⟨-, -, -, -, -, -, e0, e1, e2⟩ := blockIndex t
  rw [flushed_last m c t h15]
  funext y
  rw [View.read_apply]
  refine (writtenBack_apply t _ y).trans ?_
  obtain ⟨u, p, r, rfl⟩ : ∃ (u : Fin 1) (p : Fin 128) (r : Fin 512), y = ix3 u p r := ⟨y 0, y 1, y 2, eq_ix3 y⟩
  have hu : u.val = 0 := by omega
  refine (hG ⟨t.val / 16, hb⟩ u p r (by show t.val = 16 * (t.val / 16) + 15; omega)).trans ?_
  refine congrArg G (funext fun a => Fin.ext ?_)
  match a with
  | ⟨0, _⟩ => show t.val / 16 = win0_2.index t (0 : Fin 3) * 1 + 1 * u.val; omega
  | ⟨1, _⟩ => show p.val = win0_2.index t (1 : Fin 3) * 128 + 1 * p.val; omega
  | ⟨2, _⟩ => show r.val = win0_2.index t (2 : Fin 3) * 512 + 1 * r.val; omega

/-- WHAT A WRITING POINT WRITES BACK is its block of the aggregate. -/
theorem flushed_eq (c : Dev nD) (t : Fin cfg0.N) (hf : (cfg0.win 2).flush t = true) :
    (dats m 0 c).flushed 2 t = ((cfg0.win 2).blk t).view.read (Elt Ideal) (result m c) :=
  flushed_eq_of m c t ((flush0_2 t).mp hf) (result m c) fun b u p r ht => last_entry m c t b ht u p r

/-- An index of the result array is in point t's block iff each coordinate is in the block's range on its axis. -/
theorem mem_block (t : Fin cfg0.N) (i : S8x128x512.Idx) :
    i ∈ ((cfg0.win 2).blk t).view.set
      ↔ ∀ a : Fin 3, win0_2.index t a * S1x128x512.size a ≤ (i a).val ∧ (i a).val < win0_2.index t a * S1x128x512.size a + S1x128x512.size a := by
  show i ∈ ((View.whole main_v0).slice (win0_2.rect t)).set ↔ _
  rw [View.set_slice_whole, Rect.mem_set_unit]
  exact Iff.rfl

/-- Every entry of the result array is in the block its batch's last point writes back. -/
theorem covered (i : S8x128x512.Idx) :
    ∃ t : Fin cfg0.N, (cfg0.win 2).flush t = true ∧ i ∈ ((cfg0.win 2).blk t).view.set := by
  have hN : cfg0.N = 128 := N_0
  have hi0 : (i 0).val < 8 := (i 0).isLt
  have hi1 : (i 1).val < 128 := (i 1).isLt
  have hi2 : (i 2).val < 512 := (i 2).isLt
  let t : Fin cfg0.N := ⟨16 * (i 0).val + 15, by omega⟩
  have htv : t.val = 16 * (i 0).val + 15 := rfl
  obtain ⟨-, -, -, -, -, -, e0, e1, e2⟩ := blockIndex t
  refine ⟨t, (flush0_2 t).mpr (by omega), ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 512 ≤ (i 2).val ∧ (i 2).val < win0_2.index t (2 : Fin 3) * 512 + 512; omega

/-- THE RESULT ARRAY after the run is the aggregate of the argument arrays. -/
theorem final (c : Dev nD) : (dats m 0 c).arrAt 2 cfg0.N = result m c :=
  (dats m 0 c).arrAt_eq_of_cover 2 (result m c) (flushed_eq m c) covered

/-- THE KERNEL'S RUN: every weakly fair execution terminates with the result array at the aggregate of the argument
    arrays and the argument arrays unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Aggregate

end
-- ==== Proof.Reference.lean ====
/-
  The reference computes the region aggregate.

  The reference is one batched contraction: for every batch b it contracts x[b, ·, ·] and w[b, ·, ·] along the pixel
  axis. Read at the index (b, c, r), with floats exact extended reals, it is the sum over all 65536 pixels n of
  x[b, c, n] · w[b, r, n]: the left operand is read at (b, c, n), the right at (b, r, n). That is the aggregate's entry.
-/
import proofs.«143034_j2525440770049_2_alg».proof.Proof.Gen.ReferenceIdeal.Read
import proofs.«143034_j2525440770049_2_alg».proof.Proof.RegionSum

noncomputable section

namespace Cert.ReferenceIdeal.RefValue

open Cert.ReferenceIdeal Idealize.ShloMosaic Idealize.ShloMosaic.ValueIdx Cert.RegionAgg
open scoped BigOperators

/-- The reference's result, as a function of its two arguments, is the region aggregate. -/
theorem reference_eq (x : SX.Idx → EReal) (w : SW.Idx → EReal) :
    Read.val_main_v0 (F := Ideal) x w = regionSum x w := by
  funext i
  rw [Read.val_main_v0_apply]
  have el : ∀ n : Fin 65536, Read.lidx_main_v0 i n = ix3 (i 0) (i 1) n := fun n =>
    funext fun a => Fin.ext (by match a with | ⟨0, _⟩ => rfl | ⟨1, _⟩ => rfl | ⟨2, _⟩ => rfl)
  have er : ∀ n : Fin 65536, Read.ridx_main_v0 i n = ix3 (i 0) (i 2) n := fun n =>
    funext fun a => Fin.ext (by match a with | ⟨0, _⟩ => rfl | ⟨1, _⟩ => rfl | ⟨2, _⟩ => rfl)
  unfold regionSum entry
  exact Finset.sum_congr rfl fun n _ => by rw [el n, er n]; rfl

end Cert.ReferenceIdeal.RefValue

end
-- ==== Proof.lean ====
/-
  The kernel and its reference compute the same region aggregate

      out[b, c, r] = Σ_{n < 65536} x[b, c, n] · w[b, r, n]        (8 batches, 128 channels, 512 regions)

  when floats are exact extended reals.

  The reference forms each entry as one sum over all 65536 pixels (Proof/Reference.lean). The kernel walks a grid of
  8 · 16 points, point 16·b + k working on tile k (pixels 4096·k, …, 4096·k + 4095) of batch b. It keeps a 128 × 512
  accumulator: zeroed at a batch's first tile, increased at every tile by the product of the tile's value block with
  the tile's weight block along the pixel axis, and copied to the batch's output block at the batch's last tile, which
  alone is written back to the result array. So after the last tile of batch b the accumulator's entry (c, r) is
  ((0 + S₀) + S₁) + … + S₁₅ with S_k = Σ_{j < 4096} x[b, c, 4096k + j] · w[b, r, 4096k + j] (Proof/Pieces.lean: what the
  body's stores leave; Proof/Payload.lean: their values entry by entry; Proof/Fold.lean: the accumulator along a batch),
  and the eight blocks written back fill the result array (Proof/Final.lean). The two agree because a finite sum in a
  commutative monoid may be cut into consecutive blocks and added block by block (Proof/RegionSum.lean, over
  Proof/LibBlockSum.lean): the addition of the extended reals is such a monoid, so the finiteness of the inputs is not
  used. The narrowing of the blocks to a shorter float format before the product is the identity on exact values, and
  no operation of the kernel was rewritten when it was read over exact values, so that reading is faithful with
  nothing to show. The three programs terminate without a fault and leave their arguments unchanged: for the two
  kernels that is the generated frame, for the reference its generated run.
-/
import proofs.«143034_j2525440770049_2_alg».proof.Defs
import proofs.«143034_j2525440770049_2_alg».proof.Proof.Gen.Kernel
import proofs.«143034_j2525440770049_2_alg».proof.Proof.Gen.Kernel.Skeleton
import proofs.«143034_j2525440770049_2_alg».proof.Proof.Gen.Kernel.Launch
import proofs.«143034_j2525440770049_2_alg».proof.Proof.Gen.Kernel.Points
import proofs.«143034_j2525440770049_2_alg».proof.Proof.Gen.Kernel.Frame
import proofs.«143034_j2525440770049_2_alg».proof.Proof.Gen.KernelIdeal
import proofs.«143034_j2525440770049_2_alg».proof.Proof.Gen.KernelIdeal.Skeleton
import proofs.«143034_j2525440770049_2_alg».proof.Proof.Gen.KernelIdeal.Launch
import proofs.«143034_j2525440770049_2_alg».proof.Proof.Gen.KernelIdeal.Points
import proofs.«143034_j2525440770049_2_alg».proof.Proof.Gen.KernelIdeal.Frame
import proofs.«143034_j2525440770049_2_alg».proof.Proof.Gen.ReferenceIdeal
import proofs.«143034_j2525440770049_2_alg».proof.Proof.Gen.Pre_finite_inputs
import proofs.«143034_j2525440770049_2_alg».proof.Proof.Gen.KernelIdeal.Value
import proofs.«143034_j2525440770049_2_alg».proof.Proof.Gen.ReferenceIdeal.Run
import proofs.«143034_j2525440770049_2_alg».proof.Proof.Gen.ReferenceIdeal.Read
import proofs.«143034_j2525440770049_2_alg».proof.Proof.LibBlockSum
import proofs.«143034_j2525440770049_2_alg».proof.Proof.Final
import proofs.«143034_j2525440770049_2_alg».proof.Proof.Reference
import Idealize.ShloMosaic.Adequacy
import Idealize.ShloMosaic.Init

noncomputable section

namespace Cert.Proof

open Idealize.ShloMosaic Idealize.SL.Sem

/-- The kernel, read over machine words, terminates without a fault and leaves its arguments unchanged. -/
theorem frame_kernel : Cert.frame_Kernel := fun m ρ _ => Cert.Kernel.Gen.frame m ρ

/-- So does the kernel read over exact values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over exact values rewrote none of its operations: nothing to show. -/
theorem preserves : Cert.preserves_Kernel_KernelIdeal := trivial

/-- From memories that agree on x and w, the kernel's result array and the reference's both end as the region aggregate
    of x and w: the kernel's by its run (the accumulator over each batch's 16 tiles, written back after the last), the
    reference's because its one contraction read at an index is the aggregate's entry. -/
theorem algebraic : Cert.algebraic_KernelIdeal_ReferenceIdeal := by
  intro m ρ m' ρ' _ hagree
  refine ⟨fun c => Cert.KernelIdeal.Aggregate.result m c, Cert.KernelIdeal.Aggregate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
